-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x2048 : Shape := ⟨3, ![2048, 16, 2048]⟩
abbrev S256x2048 : Shape := ⟨2, ![256, 2048]⟩
abbrev S256 : Shape := ⟨1, ![256]⟩
abbrev S_ : Shape := ⟨0, ![]⟩

class Facts : Prop where
  bcast_S_S2048x16x2048 : S_.BroadcastsInDim S2048x16x2048 (![] : Fin 0 → Fin S2048x16x2048.rank)
  reducesTo_S2048x16x2048_S_d0_1_2 : S2048x16x2048.ReducesTo [0, 1, 2] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2048x16x2048 .f32) (main_arg1 : FVec F S256x2048 .f32) (main_arg2 : FVec F S256 .f32) : IVec S_ 1 :=
  let main_v0 : FVec F S2048x16x2048 .f32 := Host.absf main_arg0
  let main_cst : FVec F S_ .f32 := constant S_ .f32 0x7F800000#32
  let main_v1 : FVec F S2048x16x2048 .f32 := broadcastInDim S2048x16x2048 ![] bcast_S_S2048x16x2048 main_cst
  let main_v2 : IVec S2048x16x2048 1 := cmpf .olt main_v0 main_v1
  let main_c : IVec S_ 1 := constantI S_ 1 1#1
  let main_v3 : IVec S_ 1 := (fun x v => Host.reduce IntOp.andi x v reducesTo_S2048x16x2048_S_d0_1_2 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S2048x16x2048 : Shape := ⟨3, ![2048, 16, 2048]⟩
abbrev S256x2048 : Shape := ⟨2, ![256, 2048]⟩
abbrev S256 : Shape := ⟨1, ![256]⟩
abbrev S1x256 : Shape := ⟨2, ![1, 256]⟩
abbrev S2048x256 : Shape := ⟨2, ![2048, 256]⟩
abbrev S256x8x2048 : Shape := ⟨3, ![256, 8, 2048]⟩
abbrev S256x256 : Shape := ⟨2, ![256, 256]⟩
abbrev S256x1x2048 : Shape := ⟨3, ![256, 1, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2048x16x2048, .f32⟩
  | .hbm, ⟨1, _⟩ => ⟨S256x2048, .f32⟩
  | .hbm, ⟨2, _⟩ => ⟨S256, .f32⟩
  | .hbm, ⟨3, _⟩ => ⟨S256x2048, .bf16⟩
  | .hbm, ⟨4, _⟩ => ⟨S1x256, .f32⟩
  | .hbm, ⟨5, _⟩ => ⟨S2048x256, .f32⟩
  | .local _ .vmem, ⟨0, _⟩ => ⟨S256x8x2048, .f32⟩
  | .local _ .vmem, ⟨1, _⟩ => ⟨S256x8x2048, .f32⟩
  | .local _ .vmem, ⟨2, _⟩ => ⟨S256x2048, .bf16⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S2048x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v35 : BitVec 1 := Scalar.cmpi .eq arg1 c1_i32
  let v36 : BitVec 32 := Scalar.extui v35
  let c0_i32_23 : BitVec 32 := 0#32
  let v37 : BitVec 1 := Scalar.cmpi .ne v36 c0_i32_23
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8x2048_S256x1x2048_0_0_0 : ∀ a, (![0, 0, 0] : Fin 3 → Nat) a + S256x1x2048.size a ≤ S256x8x2048.size a
  h_S256x1x2048 : 0 < S256x1x2048.numel
  shapeCasts_S256x1x2048_S256x2048 : S256x1x2048.ShapeCasts S256x2048
  inb_S256x8x2048_S256x1x2048_0_1_0 : ∀ a, (![0, 1, 0] : Fin 3 → Nat) a + S256x1x2048.size a ≤ S256x8x2048.size a
  inb_S256x8x2048_S256x1x2048_0_2_0 : ∀ a, (![0, 2, 0] : Fin 3 → Nat) a + S256x1x2048.size a ≤ S256x8x2048.size a
  inb_S256x8x2048_S256x1x2048_0_3_0 : ∀ a, (![0, 3, 0] : Fin 3 → Nat) a + S256x1x2048.size a ≤ S256x8x2048.size a
  inb_S256x8x2048_S256x1x2048_0_4_0 : ∀ a, (![0, 4, 0] : Fin 3 → Nat) a + S256x1x2048.size a ≤ S256x8x2048.size a
  inb_S256x8x2048_S256x1x2048_0_5_0 : ∀ a, (![0, 5, 0] : Fin 3 → Nat) a + S256x1x2048.size a ≤ S256x8x2048.size a
  inb_S256x8x2048_S256x1x2048_0_6_0 : ∀ a, (![0, 6, 0] : Fin 3 → Nat) a + S256x1x2048.size a ≤ S256x8x2048.size a
  inb_S256x8x2048_S256x1x2048_0_7_0 : ∀ a, (![0, 7, 0] : Fin 3 → Nat) a + S256x1x2048.size a ≤ S256x8x2048.size a
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x2048_S256x2048_S256x256_1_1_0_0_n_n_wf : DotDims.WF S256x2048 S256x2048 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x2048.size a ≤ S2048x16x2048.size a
  hwx0_0 : ∀ i : grid0.Coords, EltTy.bits .f32 = 32 ∨ (Rect.block (s := S2048x16x2048) S256x8x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .bf16 = 32 ∨ (Rect.block (s := S256x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x256.size a
  hwx0_3 : ∀ i : grid0.Coords, EltTy.bits .f32 = 32 ∨ (Rect.block (s := S2048x256) S256x256.size (cc0_transform_3 i) (hinb0_3 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S256x8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x16x2048 : Shape := ⟨3, ![2048, 16, 2048]⟩
abbrev S256x2048 : Shape := ⟨2, ![256, 2048]⟩
abbrev S256 : Shape := ⟨1, ![256]⟩
abbrev S_ : Shape := ⟨0, ![]⟩
abbrev S2048x2048 : Shape := ⟨2, ![2048, 2048]⟩
abbrev S2048x256 : Shape := ⟨2, ![2048, 256]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x16x2048, .f32⟩
  | .hbm, ⟨1, _⟩ => ⟨S256x2048, .f32⟩
  | .hbm, ⟨2, _⟩ => ⟨S256, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x256, .f32⟩
  | .hbm, ⟨9, _⟩ => ⟨S1x256, .f32⟩
  | .hbm, ⟨10, _⟩ => ⟨S2048x256, .f32⟩
  | .hbm, ⟨11, _⟩ => ⟨S2048x256, .f32⟩
  | _, _ => ⟨S2048x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S2048x16x2048_S2048x2048_d1 : S2048x16x2048.ReducesTo [1] S2048x2048
  h_S_ : 0 < S_.numel
  bcast_S_S2048x2048 : S_.BroadcastsInDim S2048x2048 (![] : Fin 0 → Fin S2048x2048.rank)
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  dot_S2048x2048_S256x2048_S2048x256_1_1_0_0_n_n_wf : DotDims.WF S2048x2048 S256x2048 S2048x256 [1] [1] [0] [0] [] []

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

class Facts : Prop extends Facts₀ where

variable [Facts]
-- ==== Proof.Pieces.lean ====
/-
  What one grid point of the kernel leaves behind, as a function of the blocks it was handed.

  The grid is 8 row blocks by 2 halves of the replica axis. At a point the body is given a block of
  256 rows, 8 replicas and 2048 features, the whole weight matrix and the bias row. It adds the block's
  eight replica slices feature by feature (`sliceSum`), multiplies the 256 x 2048 result with the
  256 x 2048 weights along the feature axis, and adds the 256 x 256 product to an accumulator that lives
  across the two halves (`accumulate`). In the first half the accumulator is cleared first, so what it
  holds afterwards is `accumulate` over the cleared block; in the second half it is `accumulate` over what
  the first half left, and the output block is that value scaled and shifted by the bias (`k0_pay2`).

  The three statements below say exactly this of the three terms the frame's run found, for any float
  instance: the stores are whole-buffer stores, so the last one decides the contents, and a load of a
  buffer just stored whole reads the stored value.
-/
import proofs.«179083_j75557064671667_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer access of a rank-two buffer are all zero. -/
theorem zero2 : (![0, 0] : Fin 2 → Nat) = fun _ => 0 := funext fun a => by fin_cases a <;> rfl

/-- The eight replica slices of a block, each 256 x 1 x 2048, added first to last and handed to the
    product in its input format. -/
def sliceSum (x0 : Vec F S256x8x2048 .f32) : FVec F S256x2048 .bf16 :=
  k0_pay4
    (View.ld x0 (Rect.unit ![0, 0, 0] S256x1x2048.size inb_S256x8x2048_S256x1x2048_0_0_0))
    (View.ld x0 (Rect.unit ![0, 1, 0] S256x1x2048.size inb_S256x8x2048_S256x1x2048_0_1_0))
    (View.ld x0 (Rect.unit ![0, 2, 0] S256x1x2048.size inb_S256x8x2048_S256x1x2048_0_2_0))
    (View.ld x0 (Rect.unit ![0, 3, 0] S256x1x2048.size inb_S256x8x2048_S256x1x2048_0_3_0))
    (View.ld x0 (Rect.unit ![0, 4, 0] S256x1x2048.size inb_S256x8x2048_S256x1x2048_0_4_0))
    (View.ld x0 (Rect.unit ![0, 5, 0] S256x1x2048.size inb_S256x8x2048_S256x1x2048_0_5_0))
    (View.ld x0 (Rect.unit ![0, 6, 0] S256x1x2048.size inb_S256x8x2048_S256x1x2048_0_6_0))
    (View.ld x0 (Rect.unit ![0, 7, 0] S256x1x2048.size inb_S256x8x2048_S256x1x2048_0_7_0))

/-- One point's step of the accumulator: the product of the block's slice sum with the weights, added to
    what the accumulator held. -/
def accumulate (x0 : Vec F S256x8x2048 .f32) (x1 : Vec F S256x2048 .bf16) (acc : Vec F S256x256 .f32) :
    FVec F S256x256 .f32 :=
  k0_pay1 (sliceSum x0) (k0_pay5 x1) acc

/-- FIRST HALF. The accumulator is stored cleared, read back, and stored again with the point's product
    added: it ends at one step over the cleared block. -/
theorem scratch_first (c : Dev nD) (i : grid0.Coords) (arg2 : Memref sig .tc .vmem S256x8x2048 .f32) (harg2 : arg2.IsWhole)
    (arg3 : Memref sig .tc .vmem S256x2048 .bf16) (harg3 : arg3.IsWhole) (arg4 : Memref sig .tc .vmem S1x256 .f32) (harg4 : arg4.IsWhole)
    (arg5 : Memref sig .tc .vmem S256x256 .f32) (harg5 : arg5.IsWhole) (arg6 : Memref sig .tc .vmem S256x256 .f32) (harg6 : arg6.IsWhole)
    (hc0 : cond0_0 i) (hc1 : ¬cond0_1 i) (x0 : Vec F S256x8x2048 .f32) (x1 : Vec F S256x2048 .bf16) (x2 : Vec F S1x256 .f32) :
    sout0_A_0 c i arg2 harg2 arg3 harg3 arg4 harg4 arg5 harg5 arg6 harg6 hc0 hc1 x0 x1 x2 = accumulate x0 x1 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x256) zero2, View.readCov_unit_zero (S := S256x256) _ zero2]
  simp only [View.readAt_eq_ld, harg2.read_unread, harg3.read_unread, View.ld_unit_zero (S := S256x2048) zero2]
  rfl

/-- SECOND HALF, the accumulator: one more step over what the first half left. -/
theorem scratch_second (c : Dev nD) (i : grid0.Coords) (arg2 : Memref sig .tc .vmem S256x8x2048 .f32) (harg2 : arg2.IsWhole)
    (arg3 : Memref sig .tc .vmem S256x2048 .bf16) (harg3 : arg3.IsWhole) (arg4 : Memref sig .tc .vmem S1x256 .f32) (harg4 : arg4.IsWhole)
    (arg5 : Memref sig .tc .vmem S256x256 .f32) (harg5 : arg5.IsWhole) (arg6 : Memref sig .tc .vmem S256x256 .f32) (harg6 : arg6.IsWhole)
    (hc0 : ¬cond0_0 i) (hc1 : cond0_1 i) (x0 : Vec F S256x8x2048 .f32) (x1 : Vec F S256x2048 .bf16) (x2 : Vec F S1x256 .f32)
    (xs0 : Vec F S256x256 .f32) :
    sout0_B_0 c i arg2 harg2 arg3 harg3 arg4 harg4 arg5 harg5 arg6 harg6 hc0 hc1 x0 x1 x2 xs0 = accumulate x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S256x256) zero2]
  simp only [View.readAt_eq_ld, harg2.read_unread, harg3.read_unread, harg6.read_unread,
    View.ld_unit_zero (S := S256x2048) zero2, View.ld_unit_zero (S := S256x256) zero2]
  rfl

/-- SECOND HALF, the output block: the accumulator after this point's step, scaled and shifted by the
    bias row. -/
theorem out_second (c : Dev nD) (i : grid0.Coords) (arg2 : Memref sig .tc .vmem S256x8x2048 .f32) (harg2 : arg2.IsWhole)
    (arg3 : Memref sig .tc .vmem S256x2048 .bf16) (harg3 : arg3.IsWhole) (arg4 : Memref sig .tc .vmem S1x256 .f32) (harg4 : arg4.IsWhole)
    (arg5 : Memref sig .tc .vmem S256x256 .f32) (harg5 : arg5.IsWhole) (arg6 : Memref sig .tc .vmem S256x256 .f32) (harg6 : arg6.IsWhole)
    (hc0 : ¬cond0_0 i) (hc1 : cond0_1 i) (x0 : Vec F S256x8x2048 .f32) (x1 : Vec F S256x2048 .bf16) (x2 : Vec F S1x256 .f32)
    (xs0 : Vec F S256x256 .f32) :
    out0_B_3 c i arg2 harg2 arg3 harg3 arg4 harg4 arg5 harg5 arg6 harg6 hc0 hc1 x0 x1 x2 xs0 = k0_pay2 (accumulate x0 x1 xs0) x2 := by
  unfold out0_B_3
  rw [View.read_writes_eq_canon _ _ _ (cover0_B_3 c i arg2 harg2 arg3 harg3 arg4 harg4 arg5 harg5 arg6 harg6 hc0 hc1 x0 x1 x2 xs0)]
  unfold kernelRun0_B
  dsimp only
  sl_unfold_words
  rw [View.canon_unit_zero (S := S256x256) zero2, View.readCov_unit_zero (S := S256x256) _ zero2]
  simp only [View.readAt_eq_ld, harg2.read_unread, harg3.read_unread, harg4.read_unread, harg6.read_unread,
    View.ld_unit_zero (S := S256x2048) zero2, View.ld_unit_zero (S := S256x256) zero2, View.ld_unit_zero (S := S1x256) zero2]
  rfl

end Cert.KernelIdeal.Pieces

end
-- ==== Proof.PointValue.lean ====
/-
  One grid point's arithmetic, entry by entry, over the extended reals.

  At the ideal instance a float is an extended real, a change of float format is the identity, and a
  matrix product into a zero accumulator is the plain sum of products over the contracted axis. Read at
  row `r` and column `o` of the 256 x 256 tile:
    * the slice sum at (r, f) is the block's eight entries (r, 0, f), ..., (r, 7, f) added first to last;
    * one step of the accumulator is what it held at (r, o) plus the sum over the 2048 features `f` of
      the slice sum at (r, f) times the weight at (o, f);
    * the output is the accumulator at (r, o) times the constant `0.0625` plus the bias row at (0, o);
    * the cleared accumulator is the constant `0.0` everywhere.
-/
import proofs.«179083_j75557064671667_2_alg».proof.Proof.Pieces
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.PointValue

open Cert.KernelIdeal Cert.KernelIdeal.Gen Cert.KernelIdeal.Pieces Idealize.ShloMosaic.ValueIdx

/-- Replica slice `kk` of a block, with its unit middle axis dropped, read at (r, f): the block at (r, kk, f).
    Dropping a unit axis keeps the row-major position, and the slice starts at offset `kk` on the middle axis. -/
theorem slice_apply (x0 : Vec Ideal S256x8x2048 .f32) (kk : Nat) (q : Fin 8) (hq : q.val = kk)
    (inb : ∀ a, (![0, kk, 0] : Fin 3 → Nat) a + S256x1x2048.size a ≤ S256x8x2048.size a)
    (h : S256x1x2048.ShapeCasts S256x2048) (r : Fin 256) (f : Fin 2048) :
    shapeCast S256x2048 (View.ld x0 (Rect.unit ![0, kk, 0] S256x1x2048.size inb)) h (ix2 r f)
      = x0 (ix3 r q f) := by
  refine (shapeCast_apply _ h (ix2 r f) (ix3 r (0 : Fin 1) f) ?_).trans ?_
  · rw [Shape.rowMajor_val_three, Shape.rowMajor_val_two]
    show (r.val * 1 + 0) * 2048 + f.val = r.val * 2048 + f.val
    omega
  · show x0 _ = x0 _
    refine congrArg x0 (funext fun a => Fin.ext ?_)
    match a with
    | ⟨0, _⟩ => show 0 + 1 * r.val = r.val; omega
    | ⟨1, _⟩ => show kk + 1 * 0 = q.val; omega
    | ⟨2, _⟩ => show 0 + 1 * f.val = f.val; omega

/-- The slice sum at (r, f): the block's eight replica entries there, added first to last. -/
theorem sliceSum_apply (x0 : Vec Ideal S256x8x2048 .f32) (r : Fin 256) (f : Fin 2048) :
    sliceSum x0 (ix2 r f)
      = x0 (ix3 r 0 f) + x0 (ix3 r 1 f) + x0 (ix3 r 2 f) + x0 (ix3 r 3 f)
        + x0 (ix3 r 4 f) + x0 (ix3 r 5 f) + x0 (ix3 r 6 f) + x0 (ix3 r 7 f) := by
  unfold sliceSum k0_pay4
  show shapeCast S256x2048 (View.ld x0 (Rect.unit ![0, 0, 0] S256x1x2048.size inb_S256x8x2048_S256x1x2048_0_0_0)) shapeCasts_S256x1x2048_S256x2048 (ix2 r f)
      + shapeCast S256x2048 (View.ld x0 (Rect.unit ![0, 1, 0] S256x1x2048.size inb_S256x8x2048_S256x1x2048_0_1_0)) shapeCasts_S256x1x2048_S256x2048 (ix2 r f)
      + shapeCast S256x2048 (View.ld x0 (Rect.unit ![0, 2, 0] S256x1x2048.size inb_S256x8x2048_S256x1x2048_0_2_0)) shapeCasts_S256x1x2048_S256x2048 (ix2 r f)
      + shapeCast S256x2048 (View.ld x0 (Rect.unit ![0, 3, 0] S256x1x2048.size inb_S256x8x2048_S256x1x2048_0_3_0)) shapeCasts_S256x1x2048_S256x2048 (ix2 r f)
      + shapeCast S256x2048 (View.ld x0 (Rect.unit ![0, 4, 0] S256x1x2048.size inb_S256x8x2048_S256x1x2048_0_4_0)) shapeCasts_S256x1x2048_S256x2048 (ix2 r f)
      + shapeCast S256x2048 (View.ld x0 (Rect.unit ![0, 5, 0] S256x1x2048.size inb_S256x8x2048_S256x1x2048_0_5_0)) shapeCasts_S256x1x2048_S256x2048 (ix2 r f)
      + shapeCast S256x2048 (View.ld x0 (Rect.unit ![0, 6, 0] S256x1x2048.size inb_S256x8x2048_S256x1x2048_0_6_0)) shapeCasts_S256x1x2048_S256x2048 (ix2 r f)
      + shapeCast S256x2048 (View.ld x0 (Rect.unit ![0, 7, 0] S256x1x2048.size inb_S256x8x2048_S256x1x2048_0_7_0)) shapeCasts_S256x1x2048_S256x2048 (ix2 r f) = _
  rw [slice_apply x0 0 0 rfl inb_S256x8x2048_S256x1x2048_0_0_0 shapeCasts_S256x1x2048_S256x2048 r f,
    slice_apply x0 1 1 rfl inb_S256x8x2048_S256x1x2048_0_1_0 shapeCasts_S256x1x2048_S256x2048 r f,
    slice_apply x0 2 2 rfl inb_S256x8x2048_S256x1x2048_0_2_0 shapeCasts_S256x1x2048_S256x2048 r f,
    slice_apply x0 3 3 rfl inb_S256x8x2048_S256x1x2048_0_3_0 shapeCasts_S256x1x2048_S256x2048 r f,
    slice_apply x0 4 4 rfl inb_S256x8x2048_S256x1x2048_0_4_0 shapeCasts_S256x1x2048_S256x2048 r f,
    slice_apply x0 5 5 rfl inb_S256x8x2048_S256x1x2048_0_5_0 shapeCasts_S256x1x2048_S256x2048 r f,
    slice_apply x0 6 6 rfl inb_S256x8x2048_S256x1x2048_0_6_0 shapeCasts_S256x1x2048_S256x2048 r f,
    slice_apply x0 7 7 rfl inb_S256x8x2048_S256x1x2048_0_7_0 shapeCasts_S256x1x2048_S256x2048 r f]

/-- The product's operand indices at output (r, o) and contraction position: rows of both operands, the
    contracted coordinate second. -/
theorem lhs_row (i : S256x256.Idx) (q : dot_S256x2048_S256x2048_S256x256_1_1_0_0_n_n.contr.Idx) : (dot_S256x2048_S256x2048_S256x256_1_1_0_0_n_n.lhsIdx i q 0).val = (i 0).val := by
  unfold DotDims.lhsIdx
  rw [dif_neg (show ¬(0 : Fin S256x2048.rank) ∈ dot_S256x2048_S256x2048_S256x256_1_1_0_0_n_n.lhsBatch by decide), dif_pos (show (0 : Fin S256x2048.rank) ∈ dot_S256x2048_S256x2048_S256x256_1_1_0_0_n_n.lhsNonContracting by decide)]
  rfl
theorem lhs_col (i : S256x256.Idx) (q : dot_S256x2048_S256x2048_S256x256_1_1_0_0_n_n.contr.Idx) : (dot_S256x2048_S256x2048_S256x256_1_1_0_0_n_n.lhsIdx i q 1).val = (q ⟨0, by decide⟩).val :=
  dot_S256x2048_S256x2048_S256x256_1_1_0_0_n_n.lhsIdx_val_of_single rfl i q
theorem rhs_row (i : S256x256.Idx) (q : dot_S256x2048_S256x2048_S256x256_1_1_0_0_n_n.contr.Idx) : (dot_S256x2048_S256x2048_S256x256_1_1_0_0_n_n.rhsIdx i q 0).val = (i 1).val := by
  unfold DotDims.rhsIdx
  rw [dif_neg (show ¬(0 : Fin S256x2048.rank) ∈ dot_S256x2048_S256x2048_S256x256_1_1_0_0_n_n.rhsBatch by decide), dif_pos (show (0 : Fin S256x2048.rank) ∈ dot_S256x2048_S256x2048_S256x256_1_1_0_0_n_n.rhsNonContracting by decide)]
  rfl
theorem rhs_col (i : S256x256.Idx) (q : dot_S256x2048_S256x2048_S256x256_1_1_0_0_n_n.contr.Idx) : (dot_S256x2048_S256x2048_S256x256_1_1_0_0_n_n.rhsIdx i q 1).val = (q ⟨0, by decide⟩).val :=
  dot_S256x2048_S256x2048_S256x256_1_1_0_0_n_n.rhsIdx_val_of_single rfl i q

/-- A product of a 256 x 2048 left operand with a 256 x 2048 right operand along their second axes, into
    zero, read at (r, o): the sum over `f` of left (r, f) times right (o, f). -/
theorem product_apply (l : FVec Ideal S256x2048 .bf16) (w : FVec Ideal S256x2048 .bf16) (r o : Fin 256) :
    FloatOps.matmul dot_S256x2048_S256x2048_S256x256_1_1_0_0_n_n none l w (constant S256x256 .f32 0x00000000#32) (ix2 r o)
      = ∑ f : Fin 2048, l (ix2 r f) * w (ix2 o f) := by
  rw [Ideal.matmul_constant_zero_apply, ← Equiv.sum_comp (ValueIdx.contrEquiv1 dot_S256x2048_S256x2048_S256x256_1_1_0_0_n_n 2048 rfl rfl).symm]
  refine Finset.sum_congr rfl fun k _ => ?_
  have hk := ValueIdx.contrEquiv1_symm_val dot_S256x2048_S256x2048_S256x256_1_1_0_0_n_n 2048 rfl rfl k
  have el : dot_S256x2048_S256x2048_S256x256_1_1_0_0_n_n.lhsIdx (ix2 r o) ((ValueIdx.contrEquiv1 dot_S256x2048_S256x2048_S256x256_1_1_0_0_n_n 2048 rfl rfl).symm k) = ix2 r k := funext fun a => Fin.ext (by
    match a with
    | ⟨0, _⟩ => exact lhs_row _ _
    | ⟨1, _⟩ => exact (lhs_col _ _).trans hk)
  have er : dot_S256x2048_S256x2048_S256x256_1_1_0_0_n_n.rhsIdx (ix2 r o) ((ValueIdx.contrEquiv1 dot_S256x2048_S256x2048_S256x256_1_1_0_0_n_n 2048 rfl rfl).symm k) = ix2 o k := funext fun a => Fin.ext (by
    match a with
    | ⟨0, _⟩ => exact rhs_row _ _
    | ⟨1, _⟩ => exact (rhs_col _ _).trans hk)
  rw [el, er]

/-- One step of the accumulator at (r, o). -/
theorem accumulate_apply (x0 : Vec Ideal S256x8x2048 .f32) (x1 : Vec Ideal S256x2048 .bf16) (acc : Vec Ideal S256x256 .f32)
    (r o : Fin 256) :
    accumulate x0 x1 acc (ix2 r o) = acc (ix2 r o) + ∑ f : Fin 2048, sliceSum x0 (ix2 r f) * x1 (ix2 o f) := by
  unfold accumulate k0_pay1 k0_pay5
  simp only [shapeCast_self]
  show acc (ix2 r o) + FloatOps.matmul dot_S256x2048_S256x2048_S256x256_1_1_0_0_n_n none (sliceSum x0) x1 (constant S256x256 .f32 0x00000000#32) (ix2 r o) = _
  rw [product_apply]

/-- The output at (r, o): the accumulator there times `0.0625`, plus the bias row's entry for column `o`. -/
theorem scaleShift_apply (v : Vec Ideal S256x256 .f32) (brow : Vec Ideal S1x256 .f32) (r o : Fin 256) :
    k0_pay2 v brow (ix2 r o) = v (ix2 r o) * Ideal.ofBits .f32 0x3D800000#32 + brow (ix2 0 o) := by
  unfold k0_pay2
  simp only [shapeCast_self]
  show v (ix2 r o) * Ideal.ofBits .f32 0x3D800000#32 + broadcastTo S256x256 brow broadcasts_S1x256_S256x256 (ix2 r o) = _
  refine congrArg (fun z : EReal => v (ix2 r o) * Ideal.ofBits .f32 0x3D800000#32 + z) ?_
  refine broadcastTo_apply _ _ (ix2 r o) (ix2 0 o) fun a => ?_
  match a with
  | ⟨0, _⟩ => show 0 = if (1 : Nat) = 1 then 0 else _; rw [if_pos rfl]
  | ⟨1, _⟩ => show o.val = if (256 : Nat) = 1 then 0 else o.val; rw [if_neg (by decide)]

/-- The cleared accumulator is `0.0` at every entry. -/
theorem cleared_apply (j : S256x256.Idx) : k0_pay3 (F := Ideal) j = Ideal.ofBits .f32 0x00000000#32 := by
  unfold k0_pay3
  simp only [shapeCast_self]
  rfl

end Cert.KernelIdeal.PointValue

end
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Mathlib

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.PoolLaw.lean ====
/-
  The law that joins the two programs.

  One program averages sixteen replicas of a feature vector and then takes its inner product with a
  weight vector:   sum over f of ((x_0 f + ... + x_15 f) / 16) * w f.
  The other splits the replicas into two halves of eight, adds each half's eight vectors, takes the two
  inner products, adds them, and scales the total:
     ((x_0 + ... + x_7) . w  +  (x_8 + ... + x_15) . w) * (1/16).
  On the real numbers these agree: a sum over sixteen indices is the sum over two halves of eight
  (`sum_halves`), the inner product is additive in its first argument, and the factor 1/16 moves across
  the sum over features. On the extended reals a product does not distribute over a sum in general, so
  the law is stated for entries that are coercions of reals and proved through the coercion.
-/
import proofs.«179083_j75557064671667_2_alg».proof.Proof.LibRealSum

namespace PoolLaw

/-- Replica `kk` of half `h`: replicas are numbered half by half, eight to a half. -/
def rep (h : Fin 2) (kk : Fin 8) : Fin 16 :=
  ⟨h.val * 8 + kk.val, by have := h.isLt; have := kk.isLt; omega⟩

theorem rep_val (h : Fin 2) (kk : Fin 8) : (rep h kk).val = h.val * 8 + kk.val := rfl

/-- A sum over the sixteen replicas is the sum over the two halves of the sums over each half's eight. -/
theorem sum_halves {M : Type*} [AddCommMonoid M] (g : Fin 16 → M) :
    ∑ k : Fin 16, g k = ∑ h : Fin 2, ∑ kk : Fin 8, g (rep h kk) := by
  rw [← Fintype.sum_prod_type']
  refine (Fintype.sum_equiv (finProdFinEquiv (m := 2) (n := 8)) (fun p => g (rep p.1 p.2)) g (fun p => ?_)).symm
  refine congrArg g (Fin.ext ?_)
  show p.1.val * 8 + p.2.val = p.2.val + 8 * p.1.val
  omega

/-- THE LAW, on the reals. -/
theorem real_law {ι : Type*} [Fintype ι] (y : Fin 16 → ι → ℝ) (w : ι → ℝ) :
    (∑ f, (y (rep 0 0) f + y (rep 0 1) f + y (rep 0 2) f + y (rep 0 3) f + y (rep 0 4) f + y (rep 0 5) f
            + y (rep 0 6) f + y (rep 0 7) f) * w f
      + ∑ f, (y (rep 1 0) f + y (rep 1 1) f + y (rep 1 2) f + y (rep 1 3) f + y (rep 1 4) f + y (rep 1 5) f
            + y (rep 1 6) f + y (rep 1 7) f) * w f) * (1 / 16)
      = ∑ f, ((∑ k : Fin 16, y k f) * (1 / 16)) * w f := by
  rw [← Finset.sum_add_distrib, Finset.sum_mul]
  refine Finset.sum_congr rfl fun f _ => ?_
  rw [sum_halves (fun k => y k f), Fin.sum_univ_two, Fin.sum_univ_eight, Fin.sum_univ_eight]
  ring

/-- THE LAW, on extended reals that are real: the two halves' inner products, added from zero and scaled
    by 1/16, are the inner product of the sixteen replicas' sum, taken from zero and scaled by 1/16. -/
theorem law {ι : Type*} [Fintype ι] (y : Fin 16 → ι → ℝ) (w : ι → ℝ) :
    ((0 : EReal)
        + ∑ f, ((y (rep 0 0) f : EReal) + y (rep 0 1) f + y (rep 0 2) f + y (rep 0 3) f + y (rep 0 4) f
              + y (rep 0 5) f + y (rep 0 6) f + y (rep 0 7) f) * (w f : EReal)
        + ∑ f, ((y (rep 1 0) f : EReal) + y (rep 1 1) f + y (rep 1 2) f + y (rep 1 3) f + y (rep 1 4) f
              + y (rep 1 5) f + y (rep 1 6) f + y (rep 1 7) f) * (w f : EReal)) * ((1 / 16 : ℝ) : EReal)
      = ∑ f, (((0 : EReal) + ∑ k : Fin 16, (y k f : EReal)) * ((1 / 16 : ℝ) : EReal)) * (w f : EReal) := by
  have hk : ∀ f, (∑ k : Fin 16, (y k f : EReal)) = ((∑ k : Fin 16, y k f : ℝ) : EReal) :=
    fun f => (LibRealSum.coe_sum _ _).symm
  simp only [zero_add, hk, ← EReal.coe_add, ← EReal.coe_mul, ← LibRealSum.coe_sum]
  exact congrArg _ (real_law y w)

end PoolLaw
-- ==== Proof.Spec.lean ====
/-
  The result, as ONE function of the arrays the kernel's region is handed.

  `x` is the node features, 2048 nodes x 16 replicas x 2048 features; `W` the weights, 256 outputs x 2048
  features; `b` the bias as a row, 1 x 256. For node `n` and output `o`:

      out (n, o) = (0.0 + sum_f half_0 (n, f) * W (o, f) + sum_f half_1 (n, f) * W (o, f)) * 0.0625 + b (0, o)

  where `half_h (n, f)` is the sum of the eight replicas of half `h`, added first to last. This is the
  order in which the kernel adds; the float constants stay bit patterns here and are evaluated only
  where the two programs are compared.
-/
import proofs.«179083_j75557064671667_2_alg».proof.Proof.PoolLaw
import Idealize.ShloMosaic.PureOps.Ideal
import Idealize.ShloMosaic.Lib.ValueIdx

noncomputable section

namespace Cert.Pooled

open Idealize.ShloMosaic Idealize.ShloMosaic.ValueIdx PoolLaw

/-- The eight replicas of half `h` of node `n` at feature `f`, added first to last. -/
def halfSum (x : (⟨3, ![2048, 16, 2048]⟩ : Shape).Idx → EReal) (n : Fin 2048) (h : Fin 2) (f : Fin 2048) : EReal :=
  x (ix3 n (rep h 0) f) + x (ix3 n (rep h 1) f) + x (ix3 n (rep h 2) f) + x (ix3 n (rep h 3) f)
    + x (ix3 n (rep h 4) f) + x (ix3 n (rep h 5) f) + x (ix3 n (rep h 6) f) + x (ix3 n (rep h 7) f)

/-- The pooled linear layer at node `n` and output `o`, in the kernel's order of addition. -/
def entry (x : (⟨3, ![2048, 16, 2048]⟩ : Shape).Idx → EReal) (W : (⟨2, ![256, 2048]⟩ : Shape).Idx → EReal)
    (b : (⟨2, ![1, 256]⟩ : Shape).Idx → EReal) (n : Fin 2048) (o : Fin 256) : EReal :=
  (Ideal.ofBits .f32 0x00000000#32
      + ∑ f : Fin 2048, halfSum x n 0 f * W (ix2 o f)
      + ∑ f : Fin 2048, halfSum x n 1 f * W (ix2 o f)) * Ideal.ofBits .f32 0x3D800000#32
    + b (ix2 0 o)

/-- The whole result array: `entry` at each index's two coordinates. -/
def pooledLinear (x : (⟨3, ![2048, 16, 2048]⟩ : Shape).Idx → EReal) (W : (⟨2, ![256, 2048]⟩ : Shape).Idx → EReal)
    (b : (⟨2, ![1, 256]⟩ : Shape).Idx → EReal) : (⟨2, ![2048, 256]⟩ : Shape).Idx → EReal :=
  fun i => entry x W b (i 0) (i 1)

end Cert.Pooled

end
-- ==== Proof.PointSpec.lean ====
/-
  A finished row block's tile is the specification's.

  Take the two grid points of one row block: the first was handed the replicas of half 0, the second
  those of half 1, both the same weights and bias row. After the second point the output tile at
  (r, o) is
      (0.0 + sum_f half_0 * W + sum_f half_1 * W) * 0.0625 + bias,
  which is the specification's entry at the node the tile's row `r` stands for, as soon as the blocks'
  entries are the arrays' entries at that node: the hypotheses below, stated over plain vectors so that
  they can be discharged for any grid point afterwards.
-/
import proofs.«179083_j75557064671667_2_alg».proof.Proof.PointValue
import proofs.«179083_j75557064671667_2_alg».proof.Proof.Spec

noncomputable section

open Idealize.ShloMosaic Idealize.ShloMosaic.TcCoe Idealize.SL.Sem

namespace Cert.KernelIdeal.PointSpec

open Cert.KernelIdeal Cert.KernelIdeal.Gen Cert.KernelIdeal.Pieces Cert.KernelIdeal.PointValue
open Idealize.ShloMosaic.ValueIdx PoolLaw Cert.Pooled

/-- The tile after a row block's two points, at (r, o). -/
theorem tile_apply (x0A x0B : Vec Ideal S256x8x2048 .f32) (x1A x1B : Vec Ideal S256x2048 .bf16) (x2 : Vec Ideal S1x256 .f32)
    (r o : Fin 256) :
    k0_pay2 (accumulate x0B x1B (accumulate x0A x1A (k0_pay3 (F := Ideal)))) x2 (ix2 r o)
      = (Ideal.ofBits .f32 0x00000000#32
          + ∑ f : Fin 2048, sliceSum x0A (ix2 r f) * x1A (ix2 o f)
          + ∑ f : Fin 2048, sliceSum x0B (ix2 r f) * x1B (ix2 o f)) * Ideal.ofBits .f32 0x3D800000#32
        + x2 (ix2 0 o) := by
  rw [scaleShift_apply, accumulate_apply, accumulate_apply, cleared_apply]

/-- ... which is the specification's entry at node `n` and output `o` when the two blocks hold node `n`'s
    two halves in row `r`, and the weight and bias blocks hold the weights and the bias row. -/
theorem tile_is_entry_at (x : (⟨3, ![2048, 16, 2048]⟩ : Shape).Idx → EReal) (W : (⟨2, ![256, 2048]⟩ : Shape).Idx → EReal)
    (brow : (⟨2, ![1, 256]⟩ : Shape).Idx → EReal)
    (x0A x0B : Vec Ideal S256x8x2048 .f32) (x1A x1B : Vec Ideal S256x2048 .bf16) (x2 : Vec Ideal S1x256 .f32)
    (n : Fin 2048) (r o : Fin 256)
    (hA : ∀ (kk : Fin 8) (f : Fin 2048), x0A (ix3 r kk f) = x (ix3 n (rep 0 kk) f))
    (hB : ∀ (kk : Fin 8) (f : Fin 2048), x0B (ix3 r kk f) = x (ix3 n (rep 1 kk) f))
    (hWA : ∀ f : Fin 2048, x1A (ix2 o f) = W (ix2 o f)) (hWB : ∀ f : Fin 2048, x1B (ix2 o f) = W (ix2 o f))
    (hb : x2 (ix2 0 o) = brow (ix2 0 o)) :
    k0_pay2 (accumulate x0B x1B (accumulate x0A x1A (k0_pay3 (F := Ideal)))) x2 (ix2 r o) = entry x W brow n o := by
  rw [tile_apply]
  unfold entry halfSum
  simp only [sliceSum_apply, hA, hB, hWA, hWB, hb]

/-- The same at any index `j` of the tile, through its two coordinates. -/
theorem tile_is_entry (x : (⟨3, ![2048, 16, 2048]⟩ : Shape).Idx → EReal) (W : (⟨2, ![256, 2048]⟩ : Shape).Idx → EReal)
    (brow : (⟨2, ![1, 256]⟩ : Shape).Idx → EReal)
    (x0A x0B : Vec Ideal S256x8x2048 .f32) (x1A x1B : Vec Ideal S256x2048 .bf16) (x2 : Vec Ideal S1x256 .f32)
    (n : Fin 2048) (j : S256x256.Idx)
    (hA : ∀ (kk : Fin 8) (f : Fin 2048), x0A (ix3 (j 0) kk f) = x (ix3 n (rep 0 kk) f))
    (hB : ∀ (kk : Fin 8) (f : Fin 2048), x0B (ix3 (j 0) kk f) = x (ix3 n (rep 1 kk) f))
    (hWA : ∀ f : Fin 2048, x1A (ix2 (j 1) f) = W (ix2 (j 1) f)) (hWB : ∀ f : Fin 2048, x1B (ix2 (j 1) f) = W (ix2 (j 1) f))
    (hb : x2 (ix2 0 (j 1)) = brow (ix2 0 (j 1))) :
    k0_pay2 (accumulate x0B x1B (accumulate x0A x1A (k0_pay3 (F := Ideal)))) x2 j = entry x W brow n (j 1) :=
  (congrArg (k0_pay2 (accumulate x0B x1B (accumulate x0A x1A (k0_pay3 (F := Ideal)))) x2) (eq_ix2 j)).trans
    (tile_is_entry_at x W brow x0A x0B x1A x1B x2 n (j 0) (j 1) hA hB hWA hWB hb)

end Cert.KernelIdeal.PointSpec

end
-- ==== Proof.Blocks.lean ====
/-
  Where the windows' blocks sit in their arrays.

  The sixteen grid points are numbered row block by row block, two to a row block: point `t` works on
  row block `t / 2` and on half `t % 2` of the replica axis. A block's entry at an index inside the
  block is the array's entry at block index times block size plus the inside index, axis by axis:
    * the features' block at (r, kk, f) is the features at (256 (t/2) + r, 8 (t%2) + kk, f);
    * the weights' and the bias row's blocks are the whole arrays;
    * the output's tile at (r, o) lands at (256 (t/2) + r, o).
-/
import proofs.«179083_j75557064671667_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The windows' block indices at point `t`, decided over the sixteen points. -/
theorem index_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 2 ∧ win0_3.index t (1 : Fin 2) = 0 :=
  (by decide +kernel : ∀ t : Fin grid0.N, _)

theorem lt_sixteen (t : Fin cfg0.N) : t.val < 16 := lt_of_lt_of_eq t.isLt (show cfg0.N = 16 from N_0)

/-- The features' block at point `t`, at (r, kk, f): node 256 (t/2) + r, replica 8 (t%2) + kk, feature f. -/
theorem features_block (c : Dev nD) (t : Fin cfg0.N) (r : Fin 256) (kk : Fin 8) (f : Fin 2048) (n : Fin 2048) (q : Fin 16)
    (hn : n.val = t.val / 2 * 256 + r.val) (hq : q.val = t.val % 2 * 8 + kk.val) :
    iblk m c 0 t (ix3 r kk f) = V m c main_arg0 (ix3 n q f) := by
  obtain ⟨a0, a1, a2, -⟩ := index_facts t
  show V m c main_arg0 (((cfg0.win 0).blk t).view.emb (ix3 r kk f)) = _
  refine congrArg (V m c main_arg0) (funext fun a => Fin.ext ?_)
  match a with
  | ⟨0, _⟩ => show win0_0.index t (0 : Fin 3) * 256 + 1 * r.val = n.val; omega
  | ⟨1, _⟩ => show win0_0.index t (1 : Fin 3) * 8 + 1 * kk.val = q.val; omega
  | ⟨2, _⟩ => show win0_0.index t (2 : Fin 3) * 2048 + 1 * f.val = f.val; omega

/-- The weights' block at any point is the region's whole weight array. -/
theorem weights_block (c : Dev nD) (t : Fin cfg0.N) (o : Fin 256) (f : Fin 2048) :
    iblk m c 1 t (ix2 o f) = V m c main_v0 (ix2 o f) := by
  obtain ⟨-, -, -, b0, b1, -⟩ := index_facts t
  show V m c main_v0 (((cfg0.win 1).blk t).view.emb (ix2 o f)) = _
  refine congrArg (V m c main_v0) (funext fun a => Fin.ext ?_)
  match a with
  | ⟨0, _⟩ => show win0_1.index t (0 : Fin 2) * 256 + 1 * o.val = o.val; omega
  | ⟨1, _⟩ => show win0_1.index t (1 : Fin 2) * 2048 + 1 * f.val = f.val; omega

/-- The bias row's block at any point is the region's whole bias row. -/
theorem bias_block (c : Dev nD) (t : Fin cfg0.N) (o : Fin 256) :
    iblk m c 2 t (ix2 0 o) = V m c main_v1 (ix2 0 o) := by
  obtain ⟨-, -, -, -, -, c0, c1, -⟩ := index_facts t
  show V m c main_v1 (((cfg0.win 2).blk t).view.emb (ix2 0 o)) = _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 256 + 1 * o.val = o.val; omega

/-- The output tile's index `j` at point `t` lands at (256 (t/2) + j 0, j 1) of the result array. -/
theorem out_index (t : Fin cfg0.N) (j : S256x256.Idx) (n : Fin 2048) (hn : n.val = t.val / 2 * 256 + (j 0).val) :
    ((cfg0.win 3).blk t).view.emb j = ix2 n (j 1) := by
  obtain ⟨-, -, -, -, -, -, -, d0, d1⟩ := index_facts t
  refine funext fun a => Fin.ext ?_
  match a with
  | ⟨0, _⟩ => show win0_3.index t (0 : Fin 2) * 256 + 1 * (j 0).val = n.val; omega
  | ⟨1, _⟩ => show win0_3.index t (1 : Fin 2) * 256 + 1 * (j 1).val = (j 1).val; omega

/-- An index of the result array is in point `t`'s output block iff each coordinate is in the block's range. -/
theorem mem_block (t : Fin cfg0.N) (i : S2048x256.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v2).slice (win0_3.rect t)).set ↔ _
  rw [View.set_slice_whole, Rect.mem_set_unit]
  exact Iff.rfl

/-- EVERY INDEX IS WRITTEN: row `n` lies in row block `n / 256`, whose odd point writes the block back. -/
theorem covered (i : S2048x256.Idx) :
    ∃ t : Fin cfg0.N, (cfg0.win 3).flush t = true ∧ i ∈ ((cfg0.win 3).blk t).view.set := by
  have hi0 : (i 0).val < 2048 := (i 0).isLt
  have hi1 : (i 1).val < 256 := (i 1).isLt
  have hN : cfg0.N = 16 := N_0
  have hb : 2 * ((i 0).val / 256) + 1 < cfg0.N := by omega
  obtain ⟨-, -, -, -, -, -, -, d0, d1⟩ := index_facts ⟨2 * ((i 0).val / 256) + 1, hb⟩
  have d0' : win0_3.index ⟨2 * ((i 0).val / 256) + 1, hb⟩ (0 : Fin 2) = (2 * ((i 0).val / 256) + 1) / 2 := d0
  refine ⟨⟨2 * ((i 0).val / 256) + 1, hb⟩, (flush0_3 _).mpr (by show (2 * ((i 0).val / 256) + 1) % 2 = 1; omega), ?_⟩
  rw [mem_block]
  intro a
  match a with
  | ⟨0, _⟩ =>
    show win0_3.index ⟨2 * ((i 0).val / 256) + 1, hb⟩ (0 : Fin 2) * 256 ≤ (i 0).val
      ∧ (i 0).val < win0_3.index ⟨2 * ((i 0).val / 256) + 1, hb⟩ (0 : Fin 2) * 256 + 256
    omega
  | ⟨1, _⟩ =>
    show win0_3.index ⟨2 * ((i 0).val / 256) + 1, hb⟩ (1 : Fin 2) * 256 ≤ (i 1).val
      ∧ (i 1).val < win0_3.index ⟨2 * ((i 0).val / 256) + 1, hb⟩ (1 : Fin 2) * 256 + 256
    omega

end Cert.KernelIdeal.Blocks

end
-- ==== Proof.KernelValue.lean ====
/-
  From tiles to the whole array: what the kernel's result array holds after the run.

  Only the odd grid points write their tile back. At an odd point the accumulator carries what the even
  point before it left — that point worked on the same row block and on half 0 of the replicas — so the
  tile written back is the finished tile: the specification read through the tile's 256 x 256 block of
  the result array (`written_back`). Every index of the array lies in the block of the odd point of its
  row block, so the array ends holding the specification of the arrays the region was handed (`final`),
  and the kernel's run ends there with its arguments unchanged (`run`).
-/
import proofs.«179083_j75557064671667_2_alg».proof.Proof.Gen.KernelIdeal.Value
import proofs.«179083_j75557064671667_2_alg».proof.Proof.PointSpec
import proofs.«179083_j75557064671667_2_alg».proof.Proof.Blocks

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Pieces Cert.KernelIdeal.PointSpec Cert.KernelIdeal.Blocks
open Idealize.ShloMosaic.ValueIdx PoolLaw Cert.Pooled

variable (m : (ℓ : Loc nD τ sig) → Buf (Elt Ideal) ℓ) (ρ : Dev nD → PrngReg)

/-- The point before `t`. -/
def prev (t : Fin cfg0.N) : Fin cfg0.N := ⟨t.val - 1, Nat.lt_of_le_of_lt (Nat.sub_le _ _) t.isLt⟩

theorem prev_val (t : Fin cfg0.N) : (prev t).val = t.val - 1 := rfl

/-- The node that row `r` of point `t`'s tile stands for. -/
def node (t : Fin cfg0.N) (r : Fin 256) : Fin 2048 :=
  ⟨t.val / 2 * 256 + r.val, by have := lt_sixteen t; have := r.isLt; omega⟩

theorem node_val (t : Fin cfg0.N) (r : Fin 256) : (node t r).val = t.val / 2 * 256 + r.val := rfl

/-- The specification of the arrays as the region finds them. -/
abbrev result (c : Dev nD) : (⟨2, ![2048, 256]⟩ : Shape).Idx → EReal :=
  pooledLinear (V m c main_arg0) (V m c main_v0) (V m c main_v1)

/-- After an even point the accumulator holds one step over the cleared block. -/
theorem after_even (c : Dev nD) (t : Fin cfg0.N) (h0 : t.val % 2 = 0) (h1 : ¬t.val % 2 = 1) :
    (outsAt0 m c t.val t.isLt).2 = accumulate (iblk m c 0 t) (iblk m c 1 t) (k0_pay3 (F := Ideal)) :=
  (congrArg Prod.snd (outsAt0_A m c t h0 h1)).trans
    (scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
      (iblk m c 0 t) (iblk m c 1 t) (iblk m c 2 t))

/-- What an odd point would write back: the finished tile over the even point before it. -/
theorem tile_written (c : Dev nD) (t : Fin cfg0.N) (h0 : ¬t.val % 2 = 0) (h1 : t.val % 2 = 1) :
    (dats m 0 c).flushed 3 t = (cfg0.win 3).cut (grid0.coords t)
      (k0_pay2 (accumulate (iblk m c 0 t) (iblk m c 1 t)
        (accumulate (iblk m c 0 (prev t)) (iblk m c 1 (prev t)) (k0_pay3 (F := Ideal)))) (iblk m c 2 t)) := by
  have h0' : (prev t).val % 2 = 0 := by rw [prev_val]; omega
  have h1' : ¬(prev t).val % 2 = 1 := by rw [prev_val]; omega
  have eprev : (outsAt0 m c (t.val - 1) (Nat.lt_of_le_of_lt (Nat.sub_le _ _) t.isLt)).2
      = accumulate (iblk m c 0 (prev t)) (iblk m c 1 (prev t)) (k0_pay3 (F := Ideal)) := after_even m c (prev t) h0' h1'
  rw [Cert.KernelIdeal.Value.flushed3_B m c t h0 h1, eprev,
    out_second c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (accumulate (iblk m c 0 (prev t)) (iblk m c 1 (prev t)) (k0_pay3 (F := Ideal)))]

/-- The finished tile of an odd point `t`, at any index `j` of the tile, is the specification at the index
    of the result array where `j` lands: the even point before `t` was handed half 0 of the same nodes,
    `t` itself half 1, both the whole weights and bias row. -/
theorem tile_at (c : Dev nD) (t : Fin cfg0.N) (h0 : ¬t.val % 2 = 0) (h1 : t.val % 2 = 1) (j : S256x256.Idx) :
    k0_pay2 (accumulate (iblk m c 0 t) (iblk m c 1 t)
        (accumulate (iblk m c 0 (prev t)) (iblk m c 1 (prev t)) (k0_pay3 (F := Ideal)))) (iblk m c 2 t) j
      = result m c (((cfg0.win 3).blk t).view.emb j) := by
  have hN := lt_sixteen t
  have hj : (j 0).val < 256 := (j 0).isLt
  rw [out_index t j (node t (j 0)) (by show t.val / 2 * 256 + (j 0).val = t.val / 2 * 256 + (j 0).val; rfl)]
  show _ = entry (V m c main_arg0) (V m c main_v0) (V m c main_v1) (node t (j 0)) (j 1)
  exact tile_is_entry (V m c main_arg0) (V m c main_v0) (V m c main_v1)
    (iblk m c 0 (prev t)) (iblk m c 0 t) (iblk m c 1 (prev t)) (iblk m c 1 t) (iblk m c 2 t) (node t (j 0)) j
    (fun kk f => features_block m c (prev t) (j 0) kk f (node t (j 0)) (rep 0 kk)
      (by show t.val / 2 * 256 + (j 0).val = (t.val - 1) / 2 * 256 + (j 0).val; omega)
      (by show 0 * 8 + kk.val = (t.val - 1) % 2 * 8 + kk.val; omega))
    (fun kk f => features_block m c t (j 0) kk f (node t (j 0)) (rep 1 kk)
      (by show t.val / 2 * 256 + (j 0).val = t.val / 2 * 256 + (j 0).val; rfl)
      (by show 1 * 8 + kk.val = t.val % 2 * 8 + kk.val; omega))
    (fun f => weights_block m c (prev t) (j 1) f) (fun f => weights_block m c t (j 1) f)
    (bias_block m c t (j 1))

/-- WHAT AN ODD POINT WRITES BACK is its block of the specification. -/
theorem written_back (c : Dev nD) (t : Fin cfg0.N) (hf : (cfg0.win 3).flush t = true) :
    (dats m 0 c).flushed 3 t = ((cfg0.win 3).blk t).view.read (Elt Ideal) (result m c) := by
  have hN := lt_sixteen t
  have h1 : t.val % 2 = 1 := (flush0_3 t).mp hf
  have h0 : ¬t.val % 2 = 0 := by omega
  rw [tile_written m c t h0 h1]
  funext j
  exact tile_at m c t h0 h1 j

/-- THE RESULT ARRAY after the run is the specification of the arrays the region was handed. -/
theorem final (c : Dev nD) : (dats m 0 c).arrAt 3 cfg0.N = result m c :=
  (dats m 0 c).arrAt_eq_of_cover 3 (result m c) (fun t hf => written_back m c t hf) covered

/-- The kernel's run: it ends with the result array at the specification and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.Entry.lean ====
/-
  What the region finds in the two arrays the host prepares for it.

  Before the region the host changes the weights' float format (the identity on extended reals) and
  reshapes the 256 bias values into one row of 256 (the same row-major position). So the region's weight
  array is the weight argument, and its bias row at (0, o) is the bias argument at `o`.
-/
import proofs.«179083_j75557064671667_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.Entry

open Cert.KernelIdeal Cert.KernelIdeal.Gen Idealize.ShloMosaic.ValueIdx Idealize.ShloMosaic.StableHlo

variable (m : (ℓ : Loc nD τ sig) → Buf (Elt Ideal) ℓ)

/-- The region's weight array is the weight argument. -/
theorem weights_seen (c : Dev nD) :
    (V m c main_v0 : S256x2048.Idx → EReal) = m ((c : Thread nD τ).loc main_arg1) := by
  have e : (V m c main_v0 : S256x2048.Idx → EReal)
      = truncf (F := Ideal) .bf16 (m ((c : Thread nD τ).loc main_arg1)) bitsLt_bf16_f32 := by
    dsimp only [Gen.V, Gen.hostOps0]; after_results
  rw [e]; rfl

/-- The region's bias row at (0, o) is the bias argument at `o`. -/
theorem bias_seen (c : Dev nD) (o : Fin 256) :
    (V m c main_v1 : S1x256.Idx → EReal) (ix2 0 o) = m ((c : Thread nD τ).loc main_arg2) (ix1 o) := by
  have e : (V m c main_v1 : S1x256.Idx → EReal)
      = shapeCast S1x256 (m ((c : Thread nD τ).loc main_arg2)) shapeCasts_S256_S1x256 := by
    dsimp only [Gen.V, Gen.hostOps0]; after_results; rfl
  rw [e]
  refine shapeCast_apply _ _ (ix2 0 o) (ix1 o) ?_
  rw [Shape.rowMajor_val_one, Shape.rowMajor_val_two]
  show o.val = 0 * 256 + o.val
  omega

end Cert.KernelIdeal.Entry

end
-- ==== Proof.Consts.lean ====
/-
  The float constants the two programs spell, as the extended reals their bit patterns denote: the
  divisor 16 of the mean, the factor 1/16 the kernel multiplies by instead (a power of two, so the
  pattern denotes exactly 1/16), and the infinity the precondition compares absolute values against.
  They are evaluated here once, so that no other module unfolds the reading of a bit pattern.
-/
import Idealize.ShloMosaic.PureOps.Ideal

noncomputable section

namespace Cert.Consts

open Idealize.ShloMosaic

/-- `16.0` denotes the real 16. -/
theorem ofBits_sixteen : Ideal.ofBits .f32 0x41800000#32 = ((16 : ℝ) : EReal) := by
  simp [Ideal.ofBits, Ideal.ieee, -EReal.coe_mul]; norm_num

/-- `0.0625` denotes the real 1/16. -/
theorem ofBits_sixteenth : Ideal.ofBits .f32 0x3D800000#32 = ((1 / 16 : ℝ) : EReal) := by
  simp [Ideal.ofBits, Ideal.ieee, -EReal.coe_mul]; norm_num

/-- The pattern of `+inf` denotes the top element. -/
theorem ofBits_inf : Ideal.ofBits .f32 0x7F800000#32 = (⊤ : EReal) := by
  simp [Ideal.ofBits, Ideal.ieee]

end Cert.Consts

end
-- ==== Proof.RefValue.lean ====
/-
  The reference computes the specification.

  Read at node `n` and output `o`, the reference's result is
      sum_f ((0.0 + sum_k x (n, k, f)) / 16.0) * W (o, f)  +  b (o):
  the mean over the sixteen replicas, the inner product with row `o` of the weights, the bias. On
  the extended reals division by the real 16 is multiplication by 1/16, and when every feature entry and
  every weight entry is real the joining law turns this into the specification's two half sums scaled
  by 1/16 (which is what the pattern `0.0625` denotes).
-/
import proofs.«179083_j75557064671667_2_alg».proof.Proof.Gen.ReferenceIdeal.Read
import proofs.«179083_j75557064671667_2_alg».proof.Proof.Spec
import proofs.«179083_j75557064671667_2_alg».proof.Proof.Consts
import proofs.«179083_j75557064671667_2_alg».proof.Proof.PoolLaw

noncomputable section

namespace Cert.ReferenceIdeal.RefValue

open Cert.ReferenceIdeal Cert.ReferenceIdeal.Read Idealize.ShloMosaic Idealize.ShloMosaic.ValueIdx PoolLaw Cert.Pooled

/-- The indices the reference's operations read, as coordinates. -/
theorem lhs_idx (n : Fin 2048) (o : Fin 256) (f : Fin 2048) : lidx_main_v3 (ix2 n o) f = ix2 n f :=
  funext fun a => Fin.ext (by match a with | ⟨0, _⟩ => rfl | ⟨1, _⟩ => rfl)
theorem rhs_idx (n : Fin 2048) (o : Fin 256) (f : Fin 2048) : ridx_main_v3 (ix2 n o) f = ix2 o f :=
  funext fun a => Fin.ext (by match a with | ⟨0, _⟩ => rfl | ⟨1, _⟩ => rfl)
theorem replica_idx (n : Fin 2048) (f : Fin 2048) (k : Fin 16) : idx_main_v0 (ix2 n f) k = ix3 n k f :=
  funext fun a => Fin.ext (by match a with | ⟨0, _⟩ => rfl | ⟨1, _⟩ => rfl | ⟨2, _⟩ => rfl)
theorem bias_idx (n : Fin 2048) (o : Fin 256) : idx_main_v4 (idx_main_v5 (ix2 n o)) = ix1 o :=
  funext fun a => Fin.ext (by match a with | ⟨0, _⟩ => rfl)

/-- The reference's result at (n, o). -/
theorem ref_apply (x : FVec Ideal S2048x16x2048 .f32) (W : FVec Ideal S256x2048 .f32) (b : FVec Ideal S256 .f32)
    (n : Fin 2048) (o : Fin 256) :
    val_main_v6 (F := Ideal) x W b (ix2 n o)
      = ∑ f : Fin 2048, Ideal.div (Ideal.ofBits .f32 0x00000000#32 + ∑ k : Fin 16, x (ix3 n k f))
            (Ideal.ofBits .f32 0x41800000#32) * W (ix2 o f)
        + b (ix1 o) := by
  rw [val_main_v6_apply, val_main_v3_apply, val_main_v5_apply, val_main_v4_apply]
  simp only [val_main_v2_apply, val_main_v0_apply, val_main_v1_apply, val_main_cst_apply, val_main_cst_0_apply,
    lhs_idx, rhs_idx, replica_idx, bias_idx, Ideal.addf_def, Ideal.hostDivf_def, Ideal.ofBits_def]

/-- With real features and real weights the reference's result is the specification of the same features
    and weights and of any bias row that holds the bias. -/
theorem ref_eq_pooled (x : FVec Ideal S2048x16x2048 .f32) (W : FVec Ideal S256x2048 .f32) (b : FVec Ideal S256 .f32)
    (brow : (⟨2, ![1, 256]⟩ : Shape).Idx → EReal) (hb : ∀ o : Fin 256, brow (ix2 0 o) = b (ix1 o))
    (hx : ∀ i, ∃ r : ℝ, x i = (r : EReal)) (hW : ∀ i, ∃ r : ℝ, W i = (r : EReal)) :
    val_main_v6 (F := Ideal) x W b = pooledLinear x W brow := by
  choose xr hxr using hx
  choose wr hwr using hW
  funext i
  obtain ⟨n, o, rfl⟩ : ∃ (n : Fin 2048) (o : Fin 256), i = ix2 n o := ⟨i 0, i 1, eq_ix2 i⟩
  rw [ref_apply]
  show _ = entry x W brow n o
  unfold entry halfSum
  rw [hb, Cert.Consts.ofBits_sixteen, Cert.Consts.ofBits_sixteenth, Ideal.ofBits_zero_f32]
  simp only [hxr, hwr, Ideal.div_coe (by norm_num : (16 : ℝ) ≠ 0)]
  exact congrArg (· + b (ix1 o)) (law (fun k f => xr (ix3 n k f)) (fun f => wr (ix2 o f))).symm

end Cert.ReferenceIdeal.RefValue

end
-- ==== Proof.Finite.lean ====
/-
  What the precondition gives: every entry of the node features and of the weights is a real number.

  The precondition is the conjunction of three tests, one per input array: the absolute value of every
  entry is below +infinity. On the extended reals the absolute value is max(x, -x); it is below the
  top element exactly when `x` is neither infinity, that is, when `x` is the coercion of a real. The
  joining law needs this of the features and the weights (the bias is only ever added last, on both
  sides, so nothing is asked of it).
-/
import proofs.«179083_j75557064671667_2_alg».proof.Pre_finite_inputs
import proofs.«179083_j75557064671667_2_alg».proof.Proof.Gen.Pre_finite_inputs
import proofs.«179083_j75557064671667_2_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun _ _ => funext fun d => d.elim0⟩

/-- An extended real whose absolute value compares below the pattern of +infinity is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Cert.Consts.ofBits_inf] at h
  induction x using EReal.rec with
  | bot => exact absurd h (by simp [Ideal.cmpf_def, Ideal.cmp, Ideal.absf_def])
  | top => exact absurd h (by simp [Ideal.cmpf_def, Ideal.cmp, Ideal.absf_def])
  | coe r => exact ⟨r, rfl⟩

/-- Under the precondition every feature entry and every weight entry is a real. -/
theorem reals (a0 : FVec Ideal S2048x16x2048 .f32) (a1 : FVec Ideal S256x2048 .f32) (a2 : FVec Ideal S256 .f32)
    (h : fn (F := Ideal) a0 a1 a2 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h01, -⟩ := IntOp.andi_eq_one.1 h0
  obtain ⟨hx, hw⟩ := IntOp.andi_eq_one.1 h01
  refine ⟨fun i => real_of_abs_lt (a0 i) ?_, fun i => real_of_abs_lt (a1 i) ?_⟩
  · exact Host.reduce_andi_all _ _ _ _ _ hx i
  · exact Host.reduce_andi_all _ _ _ _ _ hw i

end Cert.Finite

end
-- ==== Proof.lean ====
/-
  A graph layer that copies each node's features to sixteen replicas, averages them and applies a linear
  map, against a kernel that computes the same thing tile by tile.

  For features x (2048 nodes, 16 replicas, 2048 features), weights W (256 outputs, 2048 features) and
  bias b (256 outputs) the reference computes, at node n and output o,

      out (n, o) = sum_f ((x (n, 0, f) + ... + x (n, 15, f)) / 16) * W (o, f) + b (o).

  The kernel walks a grid of 8 row blocks by 2 halves of the replica axis. For a row block it adds the
  eight replicas of half 0, multiplies by the weights into a cleared accumulator, does the same for
  half 1 on top of it, and writes out the accumulator times 1/16 plus the bias.

  Over the extended reals (a change of float format is the identity, every operation exact) the two
  agree whenever the features and weights are finite, which the precondition says:
    * the accumulator after a row block's two points is the sum of the two halves' products
      (Pieces, PointValue), so the tile written back is the specification's (PointSpec, Spec);
    * the tiles of the eight odd grid points cover the result array (Blocks), so the array ends at the
      specification of the argument arrays (KernelValue, Entry);
    * the reference's result is the same specification, by the joining law: sixteen replicas are two
      halves of eight, the product is additive, and the factor 1/16 moves across the sum over features —
      true of reals, hence of finite inputs (PoolLaw, Finite, RefValue).
  The kernel is printed once as it is and once idealized with no rewrite between the two, so the
  idealization claim is trivial; the three frames are the generated runs.
-/
import proofs.«179083_j75557064671667_2_alg».proof.Defs
import proofs.«179083_j75557064671667_2_alg».proof.Proof.Gen.Kernel
import proofs.«179083_j75557064671667_2_alg».proof.Proof.Gen.Kernel.Skeleton
import proofs.«179083_j75557064671667_2_alg».proof.Proof.Gen.Kernel.Launch
import proofs.«179083_j75557064671667_2_alg».proof.Proof.Gen.Kernel.Points
import proofs.«179083_j75557064671667_2_alg».proof.Proof.Gen.Kernel.Frame
import proofs.«179083_j75557064671667_2_alg».proof.Proof.Gen.KernelIdeal
import proofs.«179083_j75557064671667_2_alg».proof.Proof.Gen.KernelIdeal.Skeleton
import proofs.«179083_j75557064671667_2_alg».proof.Proof.Gen.KernelIdeal.Launch
import proofs.«179083_j75557064671667_2_alg».proof.Proof.Gen.KernelIdeal.Points
import proofs.«179083_j75557064671667_2_alg».proof.Proof.Gen.KernelIdeal.Frame
import proofs.«179083_j75557064671667_2_alg».proof.Proof.Gen.KernelIdeal.Value
import proofs.«179083_j75557064671667_2_alg».proof.Proof.Gen.ReferenceIdeal
import proofs.«179083_j75557064671667_2_alg».proof.Proof.Gen.ReferenceIdeal.Run
import proofs.«179083_j75557064671667_2_alg».proof.Proof.Gen.ReferenceIdeal.Read
import proofs.«179083_j75557064671667_2_alg».proof.Proof.Gen.Pre_finite_inputs
import proofs.«179083_j75557064671667_2_alg».proof.Proof.KernelValue
import proofs.«179083_j75557064671667_2_alg».proof.Proof.Entry
import proofs.«179083_j75557064671667_2_alg».proof.Proof.RefValue
import proofs.«179083_j75557064671667_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: nothing was rewritten. -/
theorem preserves : Cert.preserves_Kernel_KernelIdeal := trivial

/-- From memories that agree on the three arguments, both runs end, and the reference's result is the
    kernel's: the kernel's result array is the specification of its arguments, and under the
    precondition — finite features and weights — so is the reference's. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v6_eq]
  obtain ⟨hx, hW⟩ := Cert.Finite.reals _ _ _ (hpre c)
  show _ = Cert.Pooled.pooledLinear (Cert.KernelIdeal.Gen.V m c Cert.KernelIdeal.main_arg0)
    (Cert.KernelIdeal.Gen.V m c Cert.KernelIdeal.main_v0) (Cert.KernelIdeal.Gen.V m c Cert.KernelIdeal.main_v1)
  rw [Cert.KernelIdeal.Gen.V_main_arg0, Cert.KernelIdeal.Entry.weights_seen]
  exact Cert.ReferenceIdeal.RefValue.ref_eq_pooled _ _ _ _ (Cert.KernelIdeal.Entry.bias_seen m c) hx hW

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
